-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1x1024 : Shape := ⟨3, ![16384, 1, 1024]⟩
abbrev S2048 : Shape := ⟨1, ![2048]⟩
abbrev S2048x1024 : Shape := ⟨2, ![2048, 1024]⟩
abbrev S1024x2048 : Shape := ⟨2, ![1024, 2048]⟩
abbrev S1024x1024 : Shape := ⟨2, ![1024, 1024]⟩
abbrev S_ : Shape := ⟨0, ![]⟩

class Facts : Prop where
  bcast_S_S16384x1x1024 : S_.BroadcastsInDim S16384x1x1024 (![] : Fin 0 → Fin S16384x1x1024.rank)
  reducesTo_S16384x1x1024_S_d0_1_2 : S16384x1x1024.ReducesTo [0, 1, 2] S_
  h_S_ : 0 < S_.numel
  bcast_S_S2048 : S_.BroadcastsInDim S2048 (![] : Fin 0 → Fin S2048.rank)
  reducesTo_S2048_S_d0 : S2048.ReducesTo [0] S_
  bcast_S_S2048x1024 : S_.BroadcastsInDim S2048x1024 (![] : Fin 0 → Fin S2048x1024.rank)
  reducesTo_S2048x1024_S_d0_1 : S2048x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part3 {F : FTy → Type} [FloatOps F] (main_v48 : IVec S_ 1) (main_v49 : FVec F S1024x1024 .f32) (main_v50 : FVec F S1024x1024 .f32) : IVec S_ 1 :=
  let main_v51 : IVec S1024x1024 1 := cmpf .olt main_v49 main_v50
  let main_c_19 : IVec S_ 1 := constantI S_ 1 1#1
  let main_v52 : IVec S_ 1 := (fun x v => Host.reduce IntOp.andi x v reducesTo_S1024x1024_S_d0_1 h_S_) main_v51 main_c_19
  let main_v53 : IVec S_ 1 := andi main_v48 main_v52
  main_v53

def fn_part2 {F : FTy → Type} [FloatOps F] (main_arg7 : FVec F S2048x1024 .f32) (main_arg8 : FVec F S1024x2048 .f32) (main_arg9 : FVec F S1024x2048 .f32) (main_arg10 : FVec F S1024x1024 .f32) (main_v33 : IVec S_ 1) : IVec S_ 1 :=
  let main_v34 : FVec F S2048x1024 .f32 := Host.absf main_arg7
  let main_cst_12 : FVec F S_ .f32 := constant S_ .f32 0x7F800000#32
  let main_v35 : FVec F S2048x1024 .f32 := broadcastInDim S2048x1024 ![] bcast_S_S2048x1024 main_cst_12
  let main_v36 : IVec S2048x1024 1 := cmpf .olt main_v34 main_v35
  let main_c_13 : IVec S_ 1 := constantI S_ 1 1#1
  let main_v37 : IVec S_ 1 := (fun x v => Host.reduce IntOp.andi x v reducesTo_S2048x1024_S_d0_1 h_S_) main_v36 main_c_13
  let main_v38 : IVec S_ 1 := andi main_v33 main_v37
  let main_v39 : FVec F S1024x2048 .f32 := Host.absf main_arg8
  let main_cst_14 : FVec F S_ .f32 := constant S_ .f32 0x7F800000#32
  let main_v40 : FVec F S1024x2048 .f32 := broadcastInDim S1024x2048 ![] bcast_S_S1024x2048 main_cst_14
  let main_v41 : IVec S1024x2048 1 := cmpf .olt main_v39 main_v40
  let main_c_15 : IVec S_ 1 := constantI S_ 1 1#1
  let main_v42 : IVec S_ 1 := (fun x v => Host.reduce IntOp.andi x v reducesTo_S1024x2048_S_d0_1 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024x1024 .f32 := Host.absf main_arg10
  let main_cst_18 : FVec F S_ .f32 := constant S_ .f32 0x7F800000#32
  let main_v50 : FVec F S1024x1024 .f32 := broadcastInDim S1024x1024 ![] bcast_S_S1024x1024 main_cst_18
  fn_part3 (F := F) main_v48 main_v49 main_v50

def fn_part1 {F : FTy → Type} [FloatOps F] (main_arg4 : FVec F S2048 .f32) (main_arg5 : FVec F S2048 .f32) (main_arg6 : FVec F S2048x1024 .f32) (main_arg7 : FVec F S2048x1024 .f32) (main_arg8 : FVec F S1024x2048 .f32) (main_arg9 : FVec F S1024x2048 .f32) (main_arg10 : FVec F S1024x1024 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x1x1024 .f32) (main_arg1 : FVec F S2048 .f32) (main_arg2 : FVec F S2048 .f32) (main_arg3 : FVec F S2048 .f32) (main_arg4 : FVec F S2048 .f32) (main_arg5 : FVec F S2048 .f32) (main_arg6 : FVec F S2048x1024 .f32) (main_arg7 : FVec F S2048x1024 .f32) (main_arg8 : FVec F S1024x2048 .f32) (main_arg9 : FVec F S1024x2048 .f32) (main_arg10 : FVec F S1024x1024 .f32) : IVec S_ 1 :=
  let main_v0 : FVec F S16384x1x1024 .f32 := Host.absf main_arg0
  let main_cst : FVec F S_ .f32 := constant S_ .f32 0x7F800000#32
  let main_v1 : FVec F S16384x1x1024 .f32 := broadcastInDim S16384x1x1024 ![] bcast_S_S16384x1x1024 main_cst
  let main_v2 : IVec S16384x1x1024 1 := cmpf .olt main_v0 main_v1
  let main_c : IVec S_ 1 := constantI S_ 1 1#1
  let main_v3 : IVec S_ 1 := (fun x v => Host.reduce IntOp.andi x v reducesTo_S16384x1x1024_S_d0_1_2 h_S_) main_v2 main_c
  let main_v4 : FVec F S2048 .f32 := Host.absf main_arg1
  let main_cst_0 : FVec F S_ .f32 := constant S_ .f32 0x7F800000#32
  let main_v5 : FVec F S2048 .f32 := broadcastInDim S2048 ![] bcast_S_S2048 main_cst_0
  let main_v6 : IVec S2048 1 := cmpf .olt main_v4 main_v5
  let main_c_1 : IVec S_ 1 := constantI S_ 1 1#1
  let main_v7 : IVec S_ 1 := (fun x v => Host.reduce IntOp.andi x v reducesTo_S2048_S_d0 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_arg6 main_arg7 main_arg8 main_arg9 main_arg10 main_v13 main_v16
-- ==== Kernel.lean ====
abbrev S16384x1x1024 : Shape := ⟨3, ![16384, 1, 1024]⟩
abbrev S2048 : Shape := ⟨1, ![2048]⟩
abbrev S2048x1024 : Shape := ⟨2, ![2048, 1024]⟩
abbrev S1024x2048 : Shape := ⟨2, ![1024, 2048]⟩
abbrev S1024x1024 : Shape := ⟨2, ![1024, 1024]⟩
abbrev S1x2048 : Shape := ⟨2, ![1, 2048]⟩
abbrev S256x1x1024 : Shape := ⟨3, ![256, 1, 1024]⟩
abbrev S256x1024 : Shape := ⟨2, ![256, 1024]⟩
abbrev S256x2048 : Shape := ⟨2, ![256, 2048]⟩

abbrev nBuf : Space → Nat
  | .hbm => 35
  | .vmem => 12
  | .smem => 0
  | _ => 0

abbrev bufTy : (tb : Table) → Fin (tcTables nBuf tb) → BufTy
  | .hbm, ⟨0, _⟩ => ⟨S16384x1x1024, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048x1024, .f32⟩
  | .hbm, ⟨7, _⟩ => ⟨S2048x1024, .f32⟩
  | .hbm, ⟨8, _⟩ => ⟨S1024x2048, .f32⟩
  | .hbm, ⟨9, _⟩ => ⟨S1024x2048, .f32⟩
  | .hbm, ⟨10, _⟩ => ⟨S1024x1024, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S2048, .f32⟩
  | .hbm, ⟨21, _⟩ => ⟨S2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S2048, .f32⟩
  | .hbm, ⟨26, _⟩ => ⟨S1x2048, .f32⟩
  | .hbm, ⟨27, _⟩ => ⟨S1x2048, .f32⟩
  | .hbm, ⟨28, _⟩ => ⟨S1x2048, .f32⟩
  | .hbm, ⟨29, _⟩ => ⟨S2048x1024, .bf16⟩
  | .hbm, ⟨30, _⟩ => ⟨S2048x1024, .bf16⟩
  | .hbm, ⟨31, _⟩ => ⟨S1024x2048, .bf16⟩
  | .hbm, ⟨32, _⟩ => ⟨S1024x2048, .bf16⟩
  | .hbm, ⟨33, _⟩ => ⟨S1024x1024, .bf16⟩
  | .hbm, ⟨34, _⟩ => ⟨S16384x1x1024, .f32⟩
  | .local _ .vmem, ⟨0, _⟩ => ⟨S256x1x1024, .f32⟩
  | .local _ .vmem, ⟨1, _⟩ => ⟨S256x1x1024, .f32⟩
  | .local _ .vmem, ⟨2, _⟩ => ⟨S2048x1024, .bf16⟩
  | .local _ .vmem, ⟨3, _⟩ => ⟨S2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x1024, .bf16⟩
  | .local _ .vmem, ⟨7, _⟩ => ⟨S1x2048, .f32⟩
  | .local _ .vmem, ⟨8, _⟩ => ⟨S1x2048, .f32⟩
  | .local _ .vmem, ⟨9, _⟩ => ⟨S1x2048, .f32⟩
  | .local _ .vmem, ⟨10, _⟩ => ⟨S256x1x1024, .f32⟩
  | .local _ .vmem, ⟨11, _⟩ => ⟨S256x1x1024, .f32⟩
  | _, _ => ⟨S16384x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x1x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S2048_S1x2048 : S2048.ShapeCasts S1x2048
  bitsLt_bf16_f32 : FTy.bits .bf16 < FTy.bits .f32
  inb_S256x1x1024_S256x1x1024_0_0_0 : ∀ a, (![0, 0, 0] : Fin 3 → Nat) a + S256x1x1024.size a ≤ S256x1x1024.size a
  h_S256x1x1024 : 0 < S256x1x1024.numel
  shapeCasts_S256x1x1024_S256x1024 : S256x1x1024.ShapeCasts S256x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S256x2048 : S1x2048.Broadcasts S256x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S256x1024_S256x1x1024 : S256x1024.ShapeCasts S256x1x1024
  dot_S256x1024_S2048x1024_S256x2048_1_1_0_0_n_n_wf : DotDims.WF S256x1024 S2048x1024 S256x2048 [1] [1] [0] [0] [] []
  dot_S256x2048_S1024x2048_S256x1024_1_1_0_0_n_n_wf : DotDims.WF S256x2048 S1024x2048 S256x1024 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1x1024.size a ≤ S16384x1x1024.size a
  hwx0_0 : ∀ i : grid0.Coords, EltTy.bits .f32 = 32 ∨ (Rect.block (s := S16384x1x1024) S256x1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S2048x1024.size a
  hwx0_1 : ∀ i : grid0.Coords, EltTy.bits .bf16 = 32 ∨ (Rect.block (s := S2048x1024) S2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S2048x1024.size a
  hwx0_2 : ∀ i : grid0.Coords, EltTy.bits .bf16 = 32 ∨ (Rect.block (s := S2048x1024) S2048x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x2048.size a ≤ S1024x2048.size a
  hwx0_3 : ∀ i : grid0.Coords, EltTy.bits .bf16 = 32 ∨ (Rect.block (s := S1024x2048) S1024x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x2048.size a ≤ S1024x2048.size a
  hwx0_4 : ∀ i : grid0.Coords, EltTy.bits .bf16 = 32 ∨ (Rect.block (s := S1024x2048) S1024x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x2048.size a ≤ S1x2048.size a
  hwx0_6 : ∀ i : grid0.Coords, EltTy.bits .f32 = 32 ∨ (Rect.block (s := S1x2048) S1x2048.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x2048.size a ≤ S1x2048.size a
  hwx0_7 : ∀ i : grid0.Coords, EltTy.bits .f32 = 32 ∨ (Rect.block (s := S1x2048) S1x2048.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x2048.size a ≤ S1x2048.size a
  hwx0_8 : ∀ i : grid0.Coords, EltTy.bits .f32 = 32 ∨ (Rect.block (s := S1x2048) S1x2048.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x1x1024.size a ≤ S16384x1x1024.size a
  hwx0_9 : ∀ i : grid0.Coords, EltTy.bits .f32 = 32 ∨ (Rect.block (s := S16384x1x1024) S256x1x1024.size (cc0_transform_9 i) (hinb0_9 i)).WholeWords (EltTy.packing .f32)

variable [Facts₀]

def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S1024x2048_S256x1024_1_1_0_0_n_n : DotDims S256x2048 S1024x2048 S256x1024 where
  lhsContracting := [1]
  rhsContracting := [1]
  lhsNonContracting := [0]
  rhsNonContracting := [0]
  lhsBatch := []
  rhsBatch := []
  wf := dot_S256x2048_S1024x2048_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x1x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v19) S2048x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1024x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S1024x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v15) S1x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v16) S1x2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v17) S1x2048.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v23) S256x1x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x1x1024 : Shape := ⟨3, ![16384, 1, 1024]⟩
abbrev S2048 : Shape := ⟨1, ![2048]⟩
abbrev S2048x1024 : Shape := ⟨2, ![2048, 1024]⟩
abbrev S1024x2048 : Shape := ⟨2, ![1024, 2048]⟩
abbrev S1024x1024 : Shape := ⟨2, ![1024, 1024]⟩
abbrev S16384x1x2048 : Shape := ⟨3, ![16384, 1, 2048]⟩
abbrev S1x1x2048 : Shape := ⟨3, ![1, 1, 2048]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S16384x1x1024, .f32⟩
  | .hbm, ⟨1, _⟩ => ⟨S2048, .f32⟩
  | .hbm, ⟨2, _⟩ => ⟨S2048, .f32⟩
  | .hbm, ⟨3, _⟩ => ⟨S2048, .f32⟩
  | .hbm, ⟨4, _⟩ => ⟨S2048, .f32⟩
  | .hbm, ⟨5, _⟩ => ⟨S2048, .f32⟩
  | .hbm, ⟨6, _⟩ => ⟨S2048x1024, .f32⟩
  | .hbm, ⟨7, _⟩ => ⟨S2048x1024, .f32⟩
  | .hbm, ⟨8, _⟩ => ⟨S1024x2048, .f32⟩
  | .hbm, ⟨9, _⟩ => ⟨S1024x2048, .f32⟩
  | .hbm, ⟨10, _⟩ => ⟨S1024x1024, .f32⟩
  | .hbm, ⟨11, _⟩ => ⟨S2048, .f32⟩
  | .hbm, ⟨12, _⟩ => ⟨S2048, .f32⟩
  | .hbm, ⟨13, _⟩ => ⟨S2048, .f32⟩
  | .hbm, ⟨14, _⟩ => ⟨S2048, .f32⟩
  | .hbm, ⟨15, _⟩ => ⟨S2048, .f32⟩
  | .hbm, ⟨16, _⟩ => ⟨S2048, .f32⟩
  | .hbm, ⟨17, _⟩ => ⟨S2048, .f32⟩
  | .hbm, ⟨18, _⟩ => ⟨S2048, .f32⟩
  | .hbm, ⟨19, _⟩ => ⟨S2048, .f32⟩
  | .hbm, ⟨20, _⟩ => ⟨S16384x1x2048, .f32⟩
  | .hbm, ⟨21, _⟩ => ⟨S16384x1x2048, .f32⟩
  | .hbm, ⟨22, _⟩ => ⟨S2048, .f32⟩
  | .hbm, ⟨23, _⟩ => ⟨S2048, .f32⟩
  | .hbm, ⟨24, _⟩ => ⟨S2048, .f32⟩
  | .hbm, ⟨25, _⟩ => ⟨S1x1x2048, .f32⟩
  | .hbm, ⟨26, _⟩ => ⟨S16384x1x2048, .f32⟩
  | .hbm, ⟨27, _⟩ => ⟨S16384x1x2048, .f32⟩
  | .hbm, ⟨28, _⟩ => ⟨S1x1x2048, .f32⟩
  | .hbm, ⟨29, _⟩ => ⟨S16384x1x2048, .f32⟩
  | .hbm, ⟨30, _⟩ => ⟨S16384x1x2048, .f32⟩
  | .hbm, ⟨31, _⟩ => ⟨S2048, .f32⟩
  | .hbm, ⟨32, _⟩ => ⟨S2048, .f32⟩
  | .hbm, ⟨33, _⟩ => ⟨S2048, .f32⟩
  | .hbm, ⟨34, _⟩ => ⟨S1x1x2048, .f32⟩
  | .hbm, ⟨35, _⟩ => ⟨S16384x1x2048, .f32⟩
  | .hbm, ⟨36, _⟩ => ⟨S16384x1x2048, .f32⟩
  | .hbm, ⟨37, _⟩ => ⟨S1x1x2048, .f32⟩
  | .hbm, ⟨38, _⟩ => ⟨S16384x1x2048, .f32⟩
  | .hbm, ⟨39, _⟩ => ⟨S16384x1x2048, .f32⟩
  | .hbm, ⟨40, _⟩ => ⟨S16384x1x1024, .f32⟩
  | .hbm, ⟨41, _⟩ => ⟨S16384x1x1024, .f32⟩
  | .hbm, ⟨42, _⟩ => ⟨S16384x1x1024, .f32⟩
  | .hbm, ⟨43, _⟩ => ⟨S_, .f32⟩
  | .hbm, ⟨44, _⟩ => ⟨S16384x1x1024, .f32⟩
  | .hbm, ⟨45, _⟩ => ⟨S16384x1x1024, .f32⟩
  | .hbm, ⟨46, _⟩ => ⟨S16384x1x1024, .f32⟩
  | .hbm, ⟨47, _⟩ => ⟨S16384x1x1024, .f32⟩
  | _, _ => ⟨S16384x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩

abbrev nD : Nat := 1
abbrev τ : Topo := Topo.v7x

variable {F : FTy → Type} [FloatOps F]

class Facts₀ : Prop where
  bcast_S2048_S1x1x2048_2 : S2048.BroadcastsInDim S1x1x2048 (![2] : Fin 1 → Fin S1x1x2048.rank)
  bcast_S1x1x2048_S16384x1x2048_0_1_2 : S1x1x2048.BroadcastsInDim S16384x1x2048 (![0, 1, 2] : Fin 3 → Fin S16384x1x2048.rank)
  bcast_S_S16384x1x1024 : S_.BroadcastsInDim S16384x1x1024 (![] : Fin 0 → Fin S16384x1x1024.rank)
  dot_S16384x1x1024_S2048x1024_S16384x1x2048_2_1_01_0_n_n_wf : DotDims.WF S16384x1x1024 S2048x1024 S16384x1x2048 [2] [1] [0, 1] [0] [] []
  dot_S16384x1x2048_S1024x2048_S16384x1x1024_2_1_01_0_n_n_wf : DotDims.WF S16384x1x2048 S1024x2048 S16384x1x1024 [2] [1] [0, 1] [0] [] []
  dot_S16384x1x1024_S1024x1024_S16384x1x1024_2_1_01_0_n_n_wf : DotDims.WF S16384x1x1024 S1024x1024 S16384x1x1024 [2] [1] [0, 1] [0] [] []

variable [Facts₀]

def dot_S16384x1x1024_S2048x1024_S16384x1x2048_2_1_01_0_n_n : DotDims S16384x1x1024 S2048x1024 S16384x1x2048 where
  lhsContracting := [2]
  rhsContracting := [1]
  lhsNonContracting := [0, 1]
  rhsNonContracting := [0]
  lhsBatch := []
  rhsBatch := []
  wf := dot_S16384x1x1024_S2048x1024_S16384x1x2048_2_1_01_0_n_n_wf
def dot_S16384x1x2048_S1024x2048_S16384x1x1024_2_1_01_0_n_n : DotDims S16384x1x2048 S1024x2048 S16384x1x1024 where
  lhsContracting := [2]
  rhsContracting := [1]
  lhsNonContracting := [0, 1]
  rhsNonContracting := [0]
  lhsBatch := []
  rhsBatch := []
  wf := dot_S16384x1x2048_S1024x2048_S16384x1x1024_2_1_01_0_n_n_wf
def dot_S16384x1x1024_S1024x1024_S16384x1x1024_2_1_01_0_n_n : DotDims S16384x1x1024 S1024x1024 S16384x1x1024 where
  lhsContracting := [2]
  rhsContracting := [1]
  lhsNonContracting := [0, 1]
  rhsNonContracting := [0]
  lhsBatch := []
  rhsBatch := []
  wf := dot_S16384x1x1024_S1024x1024_S16384x1x1024_2_1_01_0_n_n_wf

class Facts : Prop extends Facts₀ where

variable [Facts]
-- ==== Proof.BlockValue.lean ====
/-
  What the kernel body computes from one grid point's blocks, read at one element.

  The body takes a block `U` of 256 input rows, the whole matrices `B_re`, `B_im` (2048 × 1024), `C_re`, `C_im`
  (1024 × 2048), `D` (1024 × 1024) and the three per-state rows `γ`, `a_re`, `a_im` (1 × 2048), and forms

      X_re = a_re + γ · (U B_reᵀ),   X_im = a_im + γ · (U B_imᵀ)        (256 × 2048, the rows broadcast over the block)
      Y    = 2 · (X_re C_reᵀ − X_im C_imᵀ) + U Dᵀ                        (256 × 1024).

  On the extended reals a change of float format is the identity and a matrix product into a zero accumulator is
  the plain sum over the contraction index, so at row `p` and output `q` of the block

      Y[p, q] = 2 · (Σ_s (a_re[s] + γ[s] · Σ_k U[p,k] · B_re[s,k]) · C_re[q,s]
                   − Σ_s (a_im[s] + γ[s] · Σ_k U[p,k] · B_im[s,k]) · C_im[q,s]) + Σ_k U[p,k] · D[q,k].
-/
import proofs.«115914_j9844065042808_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-! ## The three contractions' operand indices

Each product contracts the second axis of both operands: at output `(p, q)` and contraction coordinate `k` the left
operand is read at `(p, k)` and the right at `(q, k)`. -/

/-- `U Bᵀ`: 256 × 1024 by 2048 × 1024 into 256 × 2048. -/
abbrev dotB := dot_S256x1024_S2048x1024_S256x2048_1_1_0_0_n_n
/-- `X Cᵀ`: 256 × 2048 by 1024 × 2048 into 256 × 1024. -/
abbrev dotC := dot_S256x2048_S1024x2048_S256x1024_1_1_0_0_n_n
/-- `U Dᵀ`: 256 × 1024 by 1024 × 1024 into 256 × 1024. -/
abbrev dotD := dot_S256x1024_S1024x1024_S256x1024_1_1_0_0_n_n

theorem dotB_l0 (i : S256x2048.Idx) (c : dotB.contr.Idx) : (dotB.lhsIdx i c 0).val = (i 0).val := by
  unfold DotDims.lhsIdx
  rw [dif_neg (show ¬(0 : Fin S256x1024.rank) ∈ dotB.lhsBatch by decide), dif_pos (show (0 : Fin S256x1024.rank) ∈ dotB.lhsNonContracting by decide)]
  rfl
theorem dotB_l1 (i : S256x2048.Idx) (c : dotB.contr.Idx) : (dotB.lhsIdx i c 1).val = (c ⟨0, by decide⟩).val :=
  dotB.lhsIdx_val_of_single rfl i c
theorem dotB_r0 (i : S256x2048.Idx) (c : dotB.contr.Idx) : (dotB.rhsIdx i c 0).val = (i 1).val := by
  unfold DotDims.rhsIdx
  rw [dif_neg (show ¬(0 : Fin S2048x1024.rank) ∈ dotB.rhsBatch by decide), dif_pos (show (0 : Fin S2048x1024.rank) ∈ dotB.rhsNonContracting by decide)]
  rfl
theorem dotB_r1 (i : S256x2048.Idx) (c : dotB.contr.Idx) : (dotB.rhsIdx i c 1).val = (c ⟨0, by decide⟩).val :=
  dotB.rhsIdx_val_of_single rfl i c

theorem dotC_l0 (i : S256x1024.Idx) (c : dotC.contr.Idx) : (dotC.lhsIdx i c 0).val = (i 0).val := by
  unfold DotDims.lhsIdx
  rw [dif_neg (show ¬(0 : Fin S256x2048.rank) ∈ dotC.lhsBatch by decide), dif_pos (show (0 : Fin S256x2048.rank) ∈ dotC.lhsNonContracting by decide)]
  rfl
theorem dotC_l1 (i : S256x1024.Idx) (c : dotC.contr.Idx) : (dotC.lhsIdx i c 1).val = (c ⟨0, by decide⟩).val :=
  dotC.lhsIdx_val_of_single rfl i c
theorem dotC_r0 (i : S256x1024.Idx) (c : dotC.contr.Idx) : (dotC.rhsIdx i c 0).val = (i 1).val := by
  unfold DotDims.rhsIdx
  rw [dif_neg (show ¬(0 : Fin S1024x2048.rank) ∈ dotC.rhsBatch by decide), dif_pos (show (0 : Fin S1024x2048.rank) ∈ dotC.rhsNonContracting by decide)]
  rfl
theorem dotC_r1 (i : S256x1024.Idx) (c : dotC.contr.Idx) : (dotC.rhsIdx i c 1).val = (c ⟨0, by decide⟩).val :=
  dotC.rhsIdx_val_of_single rfl i c

theorem dotD_l0 (i : S256x1024.Idx) (c : dotD.contr.Idx) : (dotD.lhsIdx i c 0).val = (i 0).val := by
  unfold DotDims.lhsIdx
  rw [dif_neg (show ¬(0 : Fin S256x1024.rank) ∈ dotD.lhsBatch by decide), dif_pos (show (0 : Fin S256x1024.rank) ∈ dotD.lhsNonContracting by decide)]
  rfl
theorem dotD_l1 (i : S256x1024.Idx) (c : dotD.contr.Idx) : (dotD.lhsIdx i c 1).val = (c ⟨0, by decide⟩).val :=
  dotD.lhsIdx_val_of_single rfl i c
theorem dotD_r0 (i : S256x1024.Idx) (c : dotD.contr.Idx) : (dotD.rhsIdx i c 0).val = (i 1).val := by
  unfold DotDims.rhsIdx
  rw [dif_neg (show ¬(0 : Fin S1024x1024.rank) ∈ dotD.rhsBatch by decide), dif_pos (show (0 : Fin S1024x1024.rank) ∈ dotD.rhsNonContracting by decide)]
  rfl
theorem dotD_r1 (i : S256x1024.Idx) (c : dotD.contr.Idx) : (dotD.rhsIdx i c 1).val = (c ⟨0, by decide⟩).val :=
  dotD.rhsIdx_val_of_single rfl i c

/-! ## A product into the zero accumulator, read at `(p, q)` -/

/-- `(L Rᵀ)[p, q] = Σ_k L[p, k] · R[q, k]` for the contraction over the 1024 inputs into 2048 states. -/
theorem prodB_apply {φ₁ φ₂ : FTy} (L : FVec Ideal S256x1024 φ₁) (R : FVec Ideal S2048x1024 φ₂) (p : Fin 256) (s : Fin 2048) :
    FloatOps.matmul dotB none L R (constant S256x2048 .f32 0x00000000#32) (ix2 p s) = ∑ k : Fin 1024, L (ix2 p k) * R (ix2 s k) := by
  refine (Ideal.matmul_constant_zero_apply dotB none L R (ix2 p s)).trans ?_
  rw [← Equiv.sum_comp (contrEquiv1 dotB 1024 rfl rfl).symm]
  refine Finset.sum_congr rfl fun k _ => ?_
  have hk := contrEquiv1_symm_val dotB 1024 rfl rfl k
  have el : dotB.lhsIdx (ix2 p s) ((contrEquiv1 dotB 1024 rfl rfl).symm k) = ix2 p k := funext fun a => Fin.ext (by
    match a with
    | ⟨0, _⟩ => exact dotB_l0 _ _
    | ⟨1, _⟩ => exact (dotB_l1 _ _).trans hk)
  have er : dotB.rhsIdx (ix2 p s) ((contrEquiv1 dotB 1024 rfl rfl).symm k) = ix2 s k := funext fun a => Fin.ext (by
    match a with
    | ⟨0, _⟩ => exact dotB_r0 _ _
    | ⟨1, _⟩ => exact (dotB_r1 _ _).trans hk)
  rw [el, er]

/-- `(L Rᵀ)[p, q] = Σ_s L[p, s] · R[q, s]` for the contraction over the 2048 states into 1024 outputs. -/
theorem prodC_apply {φ₁ φ₂ : FTy} (L : FVec Ideal S256x2048 φ₁) (R : FVec Ideal S1024x2048 φ₂) (p : Fin 256) (q : Fin 1024) :
    FloatOps.matmul dotC none L R (constant S256x1024 .f32 0x00000000#32) (ix2 p q) = ∑ s : Fin 2048, L (ix2 p s) * R (ix2 q s) := by
  refine (Ideal.matmul_constant_zero_apply dotC none L R (ix2 p q)).trans ?_
  rw [← Equiv.sum_comp (contrEquiv1 dotC 2048 rfl rfl).symm]
  refine Finset.sum_congr rfl fun k _ => ?_
  have hk := contrEquiv1_symm_val dotC 2048 rfl rfl k
  have el : dotC.lhsIdx (ix2 p q) ((contrEquiv1 dotC 2048 rfl rfl).symm k) = ix2 p k := funext fun a => Fin.ext (by
    match a with
    | ⟨0, _⟩ => exact dotC_l0 _ _
    | ⟨1, _⟩ => exact (dotC_l1 _ _).trans hk)
  have er : dotC.rhsIdx (ix2 p q) ((contrEquiv1 dotC 2048 rfl rfl).symm k) = ix2 q k := funext fun a => Fin.ext (by
    match a with
    | ⟨0, _⟩ => exact dotC_r0 _ _
    | ⟨1, _⟩ => exact (dotC_r1 _ _).trans hk)
  rw [el, er]

/-- `(L Rᵀ)[p, q] = Σ_k L[p, k] · R[q, k]` for the contraction over the 1024 inputs into 1024 outputs. -/
theorem prodD_apply {φ₁ φ₂ : FTy} (L : FVec Ideal S256x1024 φ₁) (R : FVec Ideal S1024x1024 φ₂) (p : Fin 256) (q : Fin 1024) :
    FloatOps.matmul dotD none L R (constant S256x1024 .f32 0x00000000#32) (ix2 p q) = ∑ k : Fin 1024, L (ix2 p k) * R (ix2 q k) := by
  refine (Ideal.matmul_constant_zero_apply dotD none L R (ix2 p q)).trans ?_
  rw [← Equiv.sum_comp (contrEquiv1 dotD 1024 rfl rfl).symm]
  refine Finset.sum_congr rfl fun k _ => ?_
  have hk := contrEquiv1_symm_val dotD 1024 rfl rfl k
  have el : dotD.lhsIdx (ix2 p q) ((contrEquiv1 dotD 1024 rfl rfl).symm k) = ix2 p k := funext fun a => Fin.ext (by
    match a with
    | ⟨0, _⟩ => exact dotD_l0 _ _
    | ⟨1, _⟩ => exact (dotD_l1 _ _).trans hk)
  have er : dotD.rhsIdx (ix2 p q) ((contrEquiv1 dotD 1024 rfl rfl).symm k) = ix2 q k := funext fun a => Fin.ext (by
    match a with
    | ⟨0, _⟩ => exact dotD_r0 _ _
    | ⟨1, _⟩ => exact (dotD_r1 _ _).trans hk)
  rw [el, er]

/-! ## The body's values at an element -/

/-- The block of input rows as the left operand of the products: its unit middle axis dropped, the change of
    float format the identity. Row `p`, input `k` is `U[p, 0, k]`. -/
theorem rows_apply (U : Vec Ideal S256x1x1024 .f32) (p : Fin 256) (k : Fin 1024) :
    (k0_pay2 U : S256x1024.Idx → EReal) (ix2 p k) = U (ix3 p (0 : Fin 1) k) := by
  unfold k0_pay2
  exact shapeCast_apply U shapeCasts_S256x1x1024_S256x1024 (ix2 p k) (ix3 p (0 : Fin 1) k) (by
    rw [Shape.rowMajor_val_two, Shape.rowMajor_val_three]
    show (p.val * 1 + 0) * 1024 + k.val = p.val * 1024 + k.val
    omega)

/-- `(U Dᵀ)[p, q] = Σ_k U[p, 0, k] · D[q, k]`. -/
theorem feed_apply (U : Vec Ideal S256x1x1024 .f32) (D : Vec Ideal S1024x1024 .bf16) (p : Fin 256) (q : Fin 1024) :
    (k0_pay3 U D : S256x1024.Idx → EReal) (ix2 p q) = ∑ k : Fin 1024, (U (ix3 p (0 : Fin 1) k) : EReal) * (D (ix2 q k) : EReal) := by
  unfold k0_pay3
  refine (prodD_apply (φ₁ := .bf16) (φ₂ := .bf16) (k0_pay2 U) (shapeCast S1024x1024 D shapeCasts_S1024x1024_S1024x1024) p q).trans ?_
  refine Finset.sum_congr rfl fun k _ => ?_
  rw [rows_apply U p k, shapeCast_self]

/-- A per-state row, broadcast over the 256 rows of the block, read at `(p, s)`: the row's entry at `s`. -/
theorem row_apply (v : Vec Ideal S1x2048 .f32) (p : Fin 256) (s : Fin 2048) :
    (broadcastTo S256x2048 (shapeCast S1x2048 v shapeCasts_S1x2048_S1x2048) broadcasts_S1x2048_S256x2048 : S256x2048.Idx → EReal) (ix2 p s)
      = v (ix2 (0 : Fin 1) s) := by
  rw [shapeCast_self]
  exact broadcastTo_1b_ab_apply v broadcasts_S1x2048_S256x2048 p s

/-- One part of the new state over the block, at `(p, s)`: `a[s] + γ[s] · Σ_k U[p, 0, k] · B[s, k]`. -/
theorem state_apply (U : Vec Ideal S256x1x1024 .f32) (B : Vec Ideal S2048x1024 .bf16) (g a : Vec Ideal S1x2048 .f32)
    (p : Fin 256) (s : Fin 2048) :
    (addf (broadcastTo S256x2048 (shapeCast S1x2048 a shapeCasts_S1x2048_S1x2048) broadcasts_S1x2048_S256x2048)
        (mulf (broadcastTo S256x2048 (shapeCast S1x2048 g shapeCasts_S1x2048_S1x2048) broadcasts_S1x2048_S256x2048)
          (matmul (φ₁ := .bf16) (φ₂ := .bf16) dotB none (k0_pay2 U) (shapeCast S2048x1024 B shapeCasts_S2048x1024_S2048x1024 : FVec Ideal S2048x1024 .bf16) (constant S256x2048 .f32 0x00000000#32)))
      : S256x2048.Idx → EReal) (ix2 p s)
      = (a (ix2 (0 : Fin 1) s) : EReal) + (g (ix2 (0 : Fin 1) s) : EReal) * ∑ k : Fin 1024, (U (ix3 p (0 : Fin 1) k) : EReal) * (B (ix2 s k) : EReal) := by
  show (broadcastTo S256x2048 (shapeCast S1x2048 a shapeCasts_S1x2048_S1x2048) broadcasts_S1x2048_S256x2048 : S256x2048.Idx → EReal) (ix2 p s)
      + (broadcastTo S256x2048 (shapeCast S1x2048 g shapeCasts_S1x2048_S1x2048) broadcasts_S1x2048_S256x2048 : S256x2048.Idx → EReal) (ix2 p s)
        * FloatOps.matmul (φ₁ := .bf16) (φ₂ := .bf16) dotB none (k0_pay2 U) (shapeCast S2048x1024 B shapeCasts_S2048x1024_S2048x1024 : FVec Ideal S2048x1024 .bf16) (constant S256x2048 .f32 0x00000000#32) (ix2 p s) = _
  rw [row_apply a p s, row_apply g p s, prodB_apply (φ₁ := .bf16) (φ₂ := .bf16) (k0_pay2 U) (shapeCast S2048x1024 B shapeCasts_S2048x1024_S2048x1024 : FVec Ideal S2048x1024 .bf16) p s]
  refine congrArg (fun z : EReal => (a (ix2 (0 : Fin 1) s) : EReal) + (g (ix2 (0 : Fin 1) s) : EReal) * z) (Finset.sum_congr rfl fun k _ => ?_)
  rw [rows_apply U p k, shapeCast_self]

/-- THE DIFFERENCE OF THE TWO READ-OUT PRODUCTS at `(p, q)`:
    `Σ_s (a_re[s] + γ[s] · Σ_k U[p,0,k] · B_re[s,k]) · C_re[q,s] − Σ_s (a_im[s] + γ[s] · Σ_k U[p,0,k] · B_im[s,k]) · C_im[q,s]`. -/
theorem core_apply (U : Vec Ideal S256x1x1024 .f32) (Bre Bim : Vec Ideal S2048x1024 .bf16) (g aRe aIm : Vec Ideal S1x2048 .f32)
    (Cre Cim : Vec Ideal S1024x2048 .bf16) (p : Fin 256) (q : Fin 1024) :
    (k0_pay4 U Bre Bim g aRe aIm Cre Cim : S256x1024.Idx → EReal) (ix2 p q)
      = (∑ s : Fin 2048, ((aRe (ix2 (0 : Fin 1) s) : EReal) + (g (ix2 (0 : Fin 1) s) : EReal) * ∑ k : Fin 1024, (U (ix3 p (0 : Fin 1) k) : EReal) * (Bre (ix2 s k) : EReal)) * (Cre (ix2 q s) : EReal))
        - (∑ s : Fin 2048, ((aIm (ix2 (0 : Fin 1) s) : EReal) + (g (ix2 (0 : Fin 1) s) : EReal) * ∑ k : Fin 1024, (U (ix3 p (0 : Fin 1) k) : EReal) * (Bim (ix2 s k) : EReal)) * (Cim (ix2 q s) : EReal)) := by
  unfold k0_pay4
  refine congrArg₂ (fun x y : EReal => x - y) ?_ ?_
  · refine (prodC_apply (φ₁ := .bf16) (φ₂ := .bf16) _ (shapeCast S1024x2048 Cre shapeCasts_S1024x2048_S1024x2048) p q).trans ?_
    refine Finset.sum_congr rfl fun s _ => ?_
    refine congrArg₂ (fun x y : EReal => x * y) (state_apply U Bre g aRe p s) ?_
    rw [shapeCast_self]
  · refine (prodC_apply (φ₁ := .bf16) (φ₂ := .bf16) _ (shapeCast S1024x2048 Cim shapeCasts_S1024x2048_S1024x2048) p q).trans ?_
    refine Finset.sum_congr rfl fun s _ => ?_
    refine congrArg₂ (fun x y : EReal => x * y) (state_apply U Bim g aIm p s) ?_
    rw [shapeCast_self]

end Cert.KernelIdeal.Block

end
-- ==== Proof.LruStep.lean ====
/-
  One step of a diagonal complex linear recurrence with a real input, and its real read-out.

  For an input row `u` (1024 numbers), a state of 2048 complex numbers `x = x_re + i·x_im`, a diagonal
  transition `λ_s = exp(−exp ν_s)·(cos θ_s + i·sin θ_s)` with `θ_s = exp(θlog_s)`, a gain `γ_s = exp(γlog_s)`,
  complex matrices `B = B_re + i·B_im` (2048 × 1024) and `C = C_re + i·C_im` (1024 × 2048) and a real `D` (1024 × 1024):

      x'_s = λ_s · x_s + γ_s · (B u)_s                  (the new state, real and imaginary parts kept apart)
      y_j  = 2 · Re (C x')_j + (D u)_j
           = 2 · (Σ_s Re x'_s · C_re[j,s]  −  Σ_s Im x'_s · C_im[j,s]) + Σ_k u_k · D[j,k].

  Everything is read on the extended reals: the sums are finite sums of extended reals taken over the contraction
  index in its own order, and no identity between different arrangements of them is used. The per-state vectors
  `Re (λ x)`, `Im (λ x)` and `γ` are kept as whole vectors: both programs compute them by the same operations.
-/
import Idealize.ShloMosaic.PureOps.Ideal
import Idealize.ShloMosaic.Lib.ValueIdx

noncomputable section

open scoped BigOperators

namespace Cert.LruStep

open Idealize.ShloMosaic Idealize.ShloMosaic.ValueIdx

/-- The input rows `u[b, 0, k]`, and the output rows `y[b, 0, j]`. -/
abbrev Rows : Shape := ⟨3, ![16384, 1, 1024]⟩
/-- A vector over the 2048 states. -/
abbrev States : Shape := ⟨1, ![2048]⟩
/-- `B_re`, `B_im`: state × input. -/
abbrev StateByIn : Shape := ⟨2, ![2048, 1024]⟩
/-- `C_re`, `C_im`: output × state. -/
abbrev OutByState : Shape := ⟨2, ![1024, 2048]⟩
/-- `D`: output × input. -/
abbrev OutByIn : Shape := ⟨2, ![1024, 1024]⟩

/-- `Re λ = exp(−exp ν) · cos(exp θlog)`, state by state. -/
def lamRe (nu th : FVec Ideal States .f32) : FVec Ideal States .f32 :=
  mulf (Host.exp (Host.negf (Host.exp nu))) (Host.cos (Host.exp th))

/-- `Im λ = exp(−exp ν) · sin(exp θlog)`, state by state. -/
def lamIm (nu th : FVec Ideal States .f32) : FVec Ideal States .f32 :=
  mulf (Host.exp (Host.negf (Host.exp nu))) (Host.sin (Host.exp th))

/-- `Re (λ x) = Re λ · x_re − Im λ · x_im`. -/
def rotRe (xr xi nu th : FVec Ideal States .f32) : FVec Ideal States .f32 :=
  subf (mulf (lamRe nu th) xr) (mulf (lamIm nu th) xi)

/-- `Im (λ x) = Re λ · x_im + Im λ · x_re`. -/
def rotIm (xr xi nu th : FVec Ideal States .f32) : FVec Ideal States .f32 :=
  addf (mulf (lamRe nu th) xi) (mulf (lamIm nu th) xr)

/-- The gain `γ = exp γlog`. -/
def gain (g : FVec Ideal States .f32) : FVec Ideal States .f32 := Host.exp g

/-- `(B u)_s` for input row `b`: the sum over the 1024 inputs of `u[b, 0, k] · B[s, k]`. -/
def drive (u : FVec Ideal Rows .f32) (B : FVec Ideal StateByIn .f32) (b : Fin 16384) (s : Fin 2048) : EReal :=
  ∑ k : Fin 1024, u (ix3 b (0 : Fin 1) k) * B (ix2 s k)

/-- One part (real or imaginary) of the new state at `s`: the rotated old state plus the gain times the drive. -/
def newState (u : FVec Ideal Rows .f32) (a g : FVec Ideal States .f32) (B : FVec Ideal StateByIn .f32)
    (b : Fin 16384) (s : Fin 2048) : EReal :=
  a (ix1 s) + g (ix1 s) * drive u B b s

/-- The read-out `y[b, j] = 2 · (Σ_s Re x'_s · C_re[j,s] − Σ_s Im x'_s · C_im[j,s]) + Σ_k u[b,k] · D[j,k]`;
    the factor is written as the word of the float `2.0`, which both programs carry. -/
def readout (u : FVec Ideal Rows .f32) (aRe aIm g : FVec Ideal States .f32) (Bre Bim : FVec Ideal StateByIn .f32)
    (Cre Cim : FVec Ideal OutByState .f32) (D : FVec Ideal OutByIn .f32) (b : Fin 16384) (j : Fin 1024) : EReal :=
  Ideal.ofBits .f32 0x40000000#32
      * ((∑ s : Fin 2048, newState u aRe g Bre b s * Cre (ix2 j s)) - (∑ s : Fin 2048, newState u aIm g Bim b s * Cim (ix2 j s)))
    + ∑ k : Fin 1024, u (ix3 b (0 : Fin 1) k) * D (ix2 j k)

/-- The whole result array, as one function of the eleven argument arrays: row `b`, output `j` holds the read-out. -/
def out (u : FVec Ideal Rows .f32) (xr xi nu th g : FVec Ideal States .f32) (Bre Bim : FVec Ideal StateByIn .f32)
    (Cre Cim : FVec Ideal OutByState .f32) (D : FVec Ideal OutByIn .f32) : FVec Ideal Rows .f32 :=
  fun i => readout u (rotRe xr xi nu th) (rotIm xr xi nu th) (gain g) Bre Bim Cre Cim D
    ⟨(i 0).val, (i 0).isLt⟩ ⟨(i 2).val, (i 2).isLt⟩

/-- At an index given by its coordinates the result is the read-out there. -/
theorem out_apply (u : FVec Ideal Rows .f32) (xr xi nu th g : FVec Ideal States .f32) (Bre Bim : FVec Ideal StateByIn .f32)
    (Cre Cim : FVec Ideal OutByState .f32) (D : FVec Ideal OutByIn .f32) (b : Fin 16384) (o : Fin 1) (j : Fin 1024) :
    out u xr xi nu th g Bre Bim Cre Cim D (ix3 b o j)
      = readout u (rotRe xr xi nu th) (rotIm xr xi nu th) (gain g) Bre Bim Cre Cim D b j := rfl

end Cert.LruStep

end
-- ==== Proof.BlockIsLruStep.lean ====
/-
  One element of a block the kernel writes is the recurrence step's read-out.

  The value the body leaves at `(p, 0, q)` of its output block is `2 · (difference of the two read-out products) + U Dᵀ`
  at `(p, q)`. When row `p` of the block of input rows is row `b` of the input array, the weight blocks are the weight
  matrices, and the three per-state rows hold the gain and the rotated state, this is `LruStep.readout` at `(b, q)`:
  the same sums over the same contraction indices.
-/
import proofs.«115914_j9844065042808_1_alg».proof.Proof.Gen.KernelIdeal.Value
import proofs.«115914_j9844065042808_1_alg».proof.Proof.BlockValue
import proofs.«115914_j9844065042808_1_alg».proof.Proof.LruStep

noncomputable section

open scoped BigOperators

namespace Cert.KernelIdeal.Block

open Cert.KernelIdeal Cert.KernelIdeal.Gen Idealize.ShloMosaic Idealize.ShloMosaic.ValueIdx Cert.LruStep

/-- THE BLOCK'S ELEMENT: with the block's operands read as entries of the argument arrays (the hypotheses), the element
    `(p, o, q)` of what the body leaves is the read-out at row `b`, output `q`. -/
theorem element_eq (U : Vec Ideal S256x1x1024 .f32) (Bre Bim : Vec Ideal S2048x1024 .bf16) (g aRe aIm : Vec Ideal S1x2048 .f32)
    (Cre Cim : Vec Ideal S1024x2048 .bf16) (D : Vec Ideal S1024x1024 .bf16)
    (u : FVec Ideal Rows .f32) (aRe' aIm' g' : FVec Ideal States .f32) (Bre' Bim' : FVec Ideal StateByIn .f32)
    (Cre' Cim' : FVec Ideal OutByState .f32) (D' : FVec Ideal OutByIn .f32)
    (b : Fin 16384) (p : Fin 256) (o : Fin 1) (q : Fin 1024)
    (hU : ∀ k : Fin 1024, (U (ix3 p (0 : Fin 1) k) : EReal) = u (ix3 b (0 : Fin 1) k))
    (hBre : ∀ (s : Fin 2048) (k : Fin 1024), (Bre (ix2 s k) : EReal) = Bre' (ix2 s k))
    (hBim : ∀ (s : Fin 2048) (k : Fin 1024), (Bim (ix2 s k) : EReal) = Bim' (ix2 s k))
    (hCre : ∀ (j : Fin 1024) (s : Fin 2048), (Cre (ix2 j s) : EReal) = Cre' (ix2 j s))
    (hCim : ∀ (j : Fin 1024) (s : Fin 2048), (Cim (ix2 j s) : EReal) = Cim' (ix2 j s))
    (hD : ∀ (j k : Fin 1024), (D (ix2 j k) : EReal) = D' (ix2 j k))
    (hg : ∀ s : Fin 2048, (g (ix2 (0 : Fin 1) s) : EReal) = g' (ix1 s))
    (haRe : ∀ s : Fin 2048, (aRe (ix2 (0 : Fin 1) s) : EReal) = aRe' (ix1 s))
    (haIm : ∀ s : Fin 2048, (aIm (ix2 (0 : Fin 1) s) : EReal) = aIm' (ix1 s)) :
    (Value.E9 U Bre Bim g aRe aIm Cre Cim D : S256x1x1024.Idx → EReal) (ix3 p o q)
      = readout u aRe' aIm' g' Bre' Bim' Cre' Cim' D' b q := by
  have e0 : Value.ix9_0 (ix3 p o q) = ix2 p q := funext fun a => Fin.ext (by
    match a with
    | ⟨0, _⟩ => rfl
    | ⟨1, _⟩ => rfl)
  have e1 : Value.ix9_1 (ix3 p o q) = ix2 p q := funext fun a => Fin.ext (by
    match a with
    | ⟨0, _⟩ => rfl
    | ⟨1, _⟩ => rfl)
  show (Ideal.ofBits .f32 0x40000000#32 : EReal) * (k0_pay4 U Bre Bim g aRe aIm Cre Cim : S256x1024.Idx → EReal) (Value.ix9_0 (ix3 p o q))
      + (k0_pay3 U D : S256x1024.Idx → EReal) (Value.ix9_1 (ix3 p o q)) = _
  rw [e0, e1, core_apply U Bre Bim g aRe aIm Cre Cim p q, feed_apply U D p q]
  unfold readout newState drive
  simp only [hU, hBre, hBim, hCre, hCim, hD, hg, haRe, haIm]

end Cert.KernelIdeal.Block

end
-- ==== Proof.HostPrefix.lean ====
/-
  What the kernel region finds in the arrays the host wrote before it.

  Before the kernel runs, the host computes the three per-state vectors — the gain `γ = exp γlog` and the rotated
  state `Re (λ x)`, `Im (λ x)` — each reshaped from `[2048]` to one row `[1, 2048]`, and changes the float format of the
  five weight matrices. On the extended reals a format change is the identity, so the region finds the weight
  matrices as launched, and each row at `(0, s)` is the vector's entry at `s`.
-/
import proofs.«115914_j9844065042808_1_alg».proof.Proof.Gen.KernelIdeal.Frame
import proofs.«115914_j9844065042808_1_alg».proof.Proof.LruStep
import Idealize.ShloMosaic.Lib.StableHlo.Run
import Idealize.ShloMosaic.Lib.ValueLayout

noncomputable section

namespace Cert.KernelIdeal.HostPrefix

open Cert.KernelIdeal Cert.KernelIdeal.Gen Idealize.ShloMosaic Idealize.ShloMosaic.TcCoe Idealize.SL.Sem
open Idealize.ShloMosaic.StableHlo Idealize.ShloMosaic.ValueIdx Cert.LruStep

variable (m : (ℓ : Loc nD τ sig) → Buf (Elt Ideal) ℓ)

/-- The gain row: `γ` reshaped to `[1, 2048]`. -/
theorem gainRow (c : Dev nD) :
    (V m c main_v15 : S1x2048.Idx → EReal)
      = shapeCast S1x2048 (gain (m ((c : Thread nD τ).loc main_arg5))) shapeCasts_S2048_S1x2048 := by
  dsimp only [Gen.V, Gen.hostOps0]
  after_results
  rfl

/-- The row of `Re (λ x)`. -/
theorem rotReRow (c : Dev nD) :
    (V m c main_v16 : S1x2048.Idx → EReal)
      = shapeCast S1x2048 (rotRe (m ((c : Thread nD τ).loc main_arg1)) (m ((c : Thread nD τ).loc main_arg2))
          (m ((c : Thread nD τ).loc main_arg3)) (m ((c : Thread nD τ).loc main_arg4))) shapeCasts_S2048_S1x2048 := by
  dsimp only [Gen.V, Gen.hostOps0]
  after_results_simp
  rfl

/-- The row of `Im (λ x)`. -/
theorem rotImRow (c : Dev nD) :
    (V m c main_v17 : S1x2048.Idx → EReal)
      = shapeCast S1x2048 (rotIm (m ((c : Thread nD τ).loc main_arg1)) (m ((c : Thread nD τ).loc main_arg2))
          (m ((c : Thread nD τ).loc main_arg3)) (m ((c : Thread nD τ).loc main_arg4))) shapeCasts_S2048_S1x2048 := by
  dsimp only [Gen.V, Gen.hostOps0]
  after_results_simp
  rfl

/-- The five weight matrices, their float format changed: as launched. -/
theorem wBre (c : Dev nD) : (V m c main_v18 : S2048x1024.Idx → EReal) = m ((c : Thread nD τ).loc main_arg6) := by
  dsimp only [Gen.V, Gen.hostOps0]
  after_results
  rfl
theorem wBim (c : Dev nD) : (V m c main_v19 : S2048x1024.Idx → EReal) = m ((c : Thread nD τ).loc main_arg7) := by
  dsimp only [Gen.V, Gen.hostOps0]
  after_results
  rfl
theorem wCre (c : Dev nD) : (V m c main_v20 : S1024x2048.Idx → EReal) = m ((c : Thread nD τ).loc main_arg8) := by
  dsimp only [Gen.V, Gen.hostOps0]
  after_results
  rfl
theorem wCim (c : Dev nD) : (V m c main_v21 : S1024x2048.Idx → EReal) = m ((c : Thread nD τ).loc main_arg9) := by
  dsimp only [Gen.V, Gen.hostOps0]
  after_results
  rfl
theorem wD (c : Dev nD) : (V m c main_v22 : S1024x1024.Idx → EReal) = m ((c : Thread nD τ).loc main_arg10) := by
  dsimp only [Gen.V, Gen.hostOps0]
  after_results
  rfl

/-- Each row at `(0, s)` is its vector at `s`. -/
theorem gainRow_apply (c : Dev nD) (s : Fin 2048) :
    (V m c main_v15 : S1x2048.Idx → EReal) (ix2 (0 : Fin 1) s) = gain (m ((c : Thread nD τ).loc main_arg5)) (ix1 s) := by
  rw [gainRow]
  exact shapeCast_a_1a_apply _ _ (0 : Fin 1) s
theorem rotReRow_apply (c : Dev nD) (s : Fin 2048) :
    (V m c main_v16 : S1x2048.Idx → EReal) (ix2 (0 : Fin 1) s)
      = rotRe (m ((c : Thread nD τ).loc main_arg1)) (m ((c : Thread nD τ).loc main_arg2))
          (m ((c : Thread nD τ).loc main_arg3)) (m ((c : Thread nD τ).loc main_arg4)) (ix1 s) := by
  rw [rotReRow]
  exact shapeCast_a_1a_apply _ _ (0 : Fin 1) s
theorem rotImRow_apply (c : Dev nD) (s : Fin 2048) :
    (V m c main_v17 : S1x2048.Idx → EReal) (ix2 (0 : Fin 1) s)
      = rotIm (m ((c : Thread nD τ).loc main_arg1)) (m ((c : Thread nD τ).loc main_arg2))
          (m ((c : Thread nD τ).loc main_arg3)) (m ((c : Thread nD τ).loc main_arg4)) (ix1 s) := by
  rw [rotImRow]
  exact shapeCast_a_1a_apply _ _ (0 : Fin 1) s

end Cert.KernelIdeal.HostPrefix

end
-- ==== Proof.KernelValue.lean ====
/-
  The kernel's result array is the recurrence step of `LruStep`, as one function of the eleven arguments.

  The grid has 64 points. Point `t` stages rows `256 t … 256 t + 255` of the input, the five weight matrices and the
  three per-state rows whole, and writes back rows `256 t … 256 t + 255` of the result. What it writes at row `p` of its
  block is the read-out at row `b = 256 t + p` of the array (`Block.element_eq`, with each staged block read as entries
  of the arrays the region finds, and those as functions of the arguments: `HostPrefix`). The 64 blocks cover every
  row — row `b` lies in the block of point `b / 256` — so the array ends holding the read-out everywhere.
-/
import proofs.«115914_j9844065042808_1_alg».proof.Proof.Gen.KernelIdeal.Value
import proofs.«115914_j9844065042808_1_alg».proof.Proof.BlockIsLruStep
import proofs.«115914_j9844065042808_1_alg».proof.Proof.HostPrefix
import Idealize.ShloMosaic.Lib.Pipeline.Value

noncomputable section

namespace Cert.KernelIdeal.Whole

open Cert.KernelIdeal Cert.KernelIdeal.Gen Idealize.ShloMosaic Idealize.ShloMosaic.TcCoe Idealize.SL.Sem
open Idealize.ShloMosaic.ValueIdx Cert.LruStep
open Idealize.ShloMosaic.Pipeline (Dat)

variable (m : (ℓ : Loc nD τ sig) → Buf (Elt Ideal) ℓ) (ρ : Dev nD → PrngReg)

/-- The result array: the recurrence step of the launch contents of the eleven arguments. -/
abbrev result (c : Dev nD) : Buf (Elt Ideal) ((c : Thread nD τ).loc main_v23) :=
  LruStep.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem hz3 : (![0, 0, 0] : Fin 3 → Nat) = fun _ => 0 := funext fun a => by fin_cases a <;> rfl
theorem hz2 : (![0, 0] : Fin 2 → Nat) = fun _ => 0 := funext fun a => by fin_cases a <;> rfl

/-! ## The index maps, decided over the 64 grid points -/

/-- The input rows' and the result's blocks move with the grid point along the row axis only. -/
theorem idx_rows : ∀ t : Fin cfg0.N, win0_0.index t (0 : Fin 3) = t.val ∧ win0_0.index t (1 : Fin 3) = 0 ∧ win0_0.index t (2 : Fin 3) = 0
    ∧ win0_9.index t (0 : Fin 3) = t.val ∧ win0_9.index t (1 : Fin 3) = 0 ∧ win0_9.index t (2 : Fin 3) = 0 :=
  (by decide +kernel : ∀ t : Fin grid0.N, _)

/-- The weight matrices and the per-state rows are staged whole at every point. -/
theorem idx_whole : ∀ t : Fin cfg0.N, win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-! ## Each staged block as entries of the arguments -/

/-- Row `p` of the block of input rows at point `t` is row `256 t + p` of the input. -/
theorem rowsBlock (c : Dev nD) (t : Fin cfg0.N) (p : Fin 256) (k : Fin 1024) (b : Fin 16384) (hb : b.val = t.val * 256 + p.val) :
    (iblk m c 0 t : Vec Ideal S256x1x1024 .f32) (ix3 p (0 : Fin 1) k)
      = (m ((c : Thread nD τ).loc main_arg0) : S16384x1x1024.Idx → EReal) (ix3 b (0 : Fin 1) k) := by
  obtain ⟨h0, h1, h2, -⟩ := idx_rows t
  unfold iblk
  rw [View.read_apply]
  show V m c main_arg0 (((cfg0.win 0).blk t).view.emb (ix3 p (0 : Fin 1) k)) = _
  rw [V_main_arg0]
  refine congrArg _ (funext fun a => Fin.ext ?_)
  match a with
  | ⟨0, _⟩ => show win0_0.index t (0 : Fin 3) * 256 + 1 * p.val = b.val; rw [h0, hb]; omega
  | ⟨1, _⟩ => show win0_0.index t (1 : Fin 3) * 1 + 1 * 0 = 0; rw [h1]
  | ⟨2, _⟩ => show win0_0.index t (2 : Fin 3) * 1024 + 1 * k.val = k.val; rw [h2]; omega

theorem breBlock (c : Dev nD) (t : Fin cfg0.N) (s : Fin 2048) (k : Fin 1024) :
    (iblk m c 1 t : Vec Ideal S2048x1024 .bf16) (ix2 s k) = (m ((c : Thread nD τ).loc main_arg6) : S2048x1024.Idx → EReal) (ix2 s k) := by
  obtain ⟨h0, h1, -⟩ := idx_whole t
  unfold iblk
  rw [View.read_apply]
  show V m c main_v18 (((cfg0.win 1).blk t).view.emb (ix2 s k)) = _
  rw [HostPrefix.wBre]
  refine congrArg _ (funext fun a => Fin.ext ?_)
  match a with
  | ⟨0, _⟩ => show win0_1.index t (0 : Fin 2) * 2048 + 1 * s.val = s.val; rw [h0]; omega
  | ⟨1, _⟩ => show win0_1.index t (1 : Fin 2) * 1024 + 1 * k.val = k.val; rw [h1]; omega

theorem bimBlock (c : Dev nD) (t : Fin cfg0.N) (s : Fin 2048) (k : Fin 1024) :
    (iblk m c 2 t : Vec Ideal S2048x1024 .bf16) (ix2 s k) = (m ((c : Thread nD τ).loc main_arg7) : S2048x1024.Idx → EReal) (ix2 s k) := by
  obtain ⟨-, -, h0, h1, -⟩ := idx_whole t
  unfold iblk
  rw [View.read_apply]
  show V m c main_v19 (((cfg0.win 2).blk t).view.emb (ix2 s k)) = _
  rw [HostPrefix.wBim]
  refine congrArg _ (funext fun a => Fin.ext ?_)
  match a with
  | ⟨0, _⟩ => show win0_2.index t (0 : Fin 2) * 2048 + 1 * s.val = s.val; rw [h0]; omega
  | ⟨1, _⟩ => show win0_2.index t (1 : Fin 2) * 1024 + 1 * k.val = k.val; rw [h1]; omega

theorem creBlock (c : Dev nD) (t : Fin cfg0.N) (j : Fin 1024) (s : Fin 2048) :
    (iblk m c 3 t : Vec Ideal S1024x2048 .bf16) (ix2 j s) = (m ((c : Thread nD τ).loc main_arg8) : S1024x2048.Idx → EReal) (ix2 j s) := by
  obtain ⟨-, -, -, -, h0, h1, -⟩ := idx_whole t
  unfold iblk
  rw [View.read_apply]
  show V m c main_v20 (((cfg0.win 3).blk t).view.emb (ix2 j s)) = _
  rw [HostPrefix.wCre]
  refine congrArg _ (funext fun a => Fin.ext ?_)
  match a with
  | ⟨0, _⟩ => show win0_3.index t (0 : Fin 2) * 1024 + 1 * j.val = j.val; rw [h0]; omega
  | ⟨1, _⟩ => show win0_3.index t (1 : Fin 2) * 2048 + 1 * s.val = s.val; rw [h1]; omega

theorem cimBlock (c : Dev nD) (t : Fin cfg0.N) (j : Fin 1024) (s : Fin 2048) :
    (iblk m c 4 t : Vec Ideal S1024x2048 .bf16) (ix2 j s) = (m ((c : Thread nD τ).loc main_arg9) : S1024x2048.Idx → EReal) (ix2 j s) := by
  obtain ⟨-, -, -, -, -, -, h0, h1, -⟩ := idx_whole t
  unfold iblk
  rw [View.read_apply]
  show V m c main_v21 (((cfg0.win 4).blk t).view.emb (ix2 j s)) = _
  rw [HostPrefix.wCim]
  refine congrArg _ (funext fun a => Fin.ext ?_)
  match a with
  | ⟨0, _⟩ => show win0_4.index t (0 : Fin 2) * 1024 + 1 * j.val = j.val; rw [h0]; omega
  | ⟨1, _⟩ => show win0_4.index t (1 : Fin 2) * 2048 + 1 * s.val = s.val; rw [h1]; omega

theorem dBlock (c : Dev nD) (t : Fin cfg0.N) (j k : Fin 1024) :
    (iblk m c 5 t : Vec Ideal S1024x1024 .bf16) (ix2 j k) = (m ((c : Thread nD τ).loc main_arg10) : S1024x1024.Idx → EReal) (ix2 j k) := by
  obtain ⟨-, -, -, -, -, -, -, -, h0, h1, -⟩ := idx_whole t
  unfold iblk
  rw [View.read_apply]
  show V m c main_v22 (((cfg0.win 5).blk t).view.emb (ix2 j k)) = _
  rw [HostPrefix.wD]
  refine congrArg _ (funext fun a => Fin.ext ?_)
  match a with
  | ⟨0, _⟩ => show win0_5.index t (0 : Fin 2) * 1024 + 1 * j.val = j.val; rw [h0]; omega
  | ⟨1, _⟩ => show win0_5.index t (1 : Fin 2) * 1024 + 1 * k.val = k.val; rw [h1]; omega

theorem gainBlock (c : Dev nD) (t : Fin cfg0.N) (s : Fin 2048) :
    (iblk m c 6 t : Vec Ideal S1x2048 .f32) (ix2 (0 : Fin 1) s) = gain (m ((c : Thread nD τ).loc main_arg5)) (ix1 s) := by
  obtain ⟨-, -, -, -, -, -, -, -, -, -, h0, h1, -⟩ := idx_whole t
  unfold iblk
  rw [View.read_apply]
  show V m c main_v15 (((cfg0.win 6).blk t).view.emb (ix2 (0 : Fin 1) s)) = _
  refine Eq.trans (congrArg _ (funext fun a => Fin.ext ?_)) (HostPrefix.gainRow_apply m c s)
  match a with
  | ⟨0, _⟩ => show win0_6.index t (0 : Fin 2) * 1 + 1 * 0 = 0; rw [h0]
  | ⟨1, _⟩ => show win0_6.index t (1 : Fin 2) * 2048 + 1 * s.val = s.val; rw [h1]; omega

theorem rotReBlock (c : Dev nD) (t : Fin cfg0.N) (s : Fin 2048) :
    (iblk m c 7 t : Vec Ideal S1x2048 .f32) (ix2 (0 : Fin 1) s)
      = rotRe (m ((c : Thread nD τ).loc main_arg1)) (m ((c : Thread nD τ).loc main_arg2))
          (m ((c : Thread nD τ).loc main_arg3)) (m ((c : Thread nD τ).loc main_arg4)) (ix1 s) := by
  obtain ⟨-, -, -, -, -, -, -, -, -, -, -, -, h0, h1, -⟩ := idx_whole t
  unfold iblk
  rw [View.read_apply]
  show V m c main_v16 (((cfg0.win 7).blk t).view.emb (ix2 (0 : Fin 1) s)) = _
  refine Eq.trans (congrArg _ (funext fun a => Fin.ext ?_)) (HostPrefix.rotReRow_apply m c s)
  match a with
  | ⟨0, _⟩ => show win0_7.index t (0 : Fin 2) * 1 + 1 * 0 = 0; rw [h0]
  | ⟨1, _⟩ => show win0_7.index t (1 : Fin 2) * 2048 + 1 * s.val = s.val; rw [h1]; omega

theorem rotImBlock (c : Dev nD) (t : Fin cfg0.N) (s : Fin 2048) :
    (iblk m c 8 t : Vec Ideal S1x2048 .f32) (ix2 (0 : Fin 1) s)
      = rotIm (m ((c : Thread nD τ).loc main_arg1)) (m ((c : Thread nD τ).loc main_arg2))
          (m ((c : Thread nD τ).loc main_arg3)) (m ((c : Thread nD τ).loc main_arg4)) (ix1 s) := by
  obtain ⟨-, -, -, -, -, -, -, -, -, -, -, -, -, -, h0, h1⟩ := idx_whole t
  unfold iblk
  rw [View.read_apply]
  show V m c main_v17 (((cfg0.win 8).blk t).view.emb (ix2 (0 : Fin 1) s)) = _
  refine Eq.trans (congrArg _ (funext fun a => Fin.ext ?_)) (HostPrefix.rotImRow_apply m c s)
  match a with
  | ⟨0, _⟩ => show win0_8.index t (0 : Fin 2) * 1 + 1 * 0 = 0; rw [h0]
  | ⟨1, _⟩ => show win0_8.index t (1 : Fin 2) * 2048 + 1 * s.val = s.val; rw [h1]; omega

/-! ## What a point writes back -/

/-- The body's one store through the whole block leaves `E9` of the staged blocks (each load through a whole
    rectangle reads its block). -/
theorem out_eq (x0 : Vec Ideal S256x1x1024 .f32) (x1 x2 : Vec Ideal S2048x1024 .bf16) (x3 x4 : Vec Ideal S1024x2048 .bf16)
    (x5 : Vec Ideal S1024x1024 .bf16) (x6 x7 x8 : Vec Ideal S1x2048 .f32) (y : S256x1x1024.Idx) :
    out0_9 x0 x1 x2 x3 x4 x5 x6 x7 x8 y = Value.E9 x0 x1 x2 x6 x7 x8 x3 x4 x5 y := by
  unfold out0_9
  rw [Value.canon9_eq]
  simp only [View.ld_unit_zero (S := S256x1x1024) hz3, View.ld_unit_zero (S := S2048x1024) hz2,
    View.ld_unit_zero (S := S1024x2048) hz2, View.ld_unit_zero (S := S1024x1024) hz2, View.ld_unit_zero (S := S1x2048) hz2]

/-- WHAT POINT `t` WRITES BACK is block `t` of the result. -/
theorem flushed_eq (c : Dev nD) (t : Fin cfg0.N) :
    (dats m 0 c).flushed 9 t = ((cfg0.win 9).blk t).view.read (Elt Ideal) (result m c) := by
  rw [Value.flushed9]
  funext y
  obtain ⟨p, o, q, rfl⟩ : ∃ (p : Fin 256) (o : Fin 1) (q : Fin 1024), y = ix3 p o q := ⟨y 0, y 1, y 2, eq_ix3 y⟩
  have ht : t.val < 64 := lt_of_lt_of_eq t.isLt N_0
  have hbl : t.val * 256 + p.val < 16384 := by have := p.isLt; omega
  obtain ⟨-, -, -, h0, h1, h2⟩ := idx_rows t
  have hemb : ((cfg0.win 9).blk t).view.emb (ix3 p o q) = ix3 (⟨t.val * 256 + p.val, hbl⟩ : Fin 16384) o q := funext fun a => Fin.ext (by
    match a with
    | ⟨0, _⟩ => show win0_9.index t (0 : Fin 3) * 256 + 1 * p.val = t.val * 256 + p.val; rw [h0]; omega
    | ⟨1, _⟩ => show win0_9.index t (1 : Fin 3) * 1 + 1 * o.val = o.val; rw [h1]; omega
    | ⟨2, _⟩ => show win0_9.index t (2 : Fin 3) * 1024 + 1 * q.val = q.val; rw [h2]; omega)
  show out0_9 (iblk m c 0 t) (iblk m c 1 t) (iblk m c 2 t) (iblk m c 3 t) (iblk m c 4 t) (iblk m c 5 t) (iblk m c 6 t) (iblk m c 7 t) (iblk m c 8 t) (ix3 p o q)
    = result m c (((cfg0.win 9).blk t).view.emb (ix3 p o q))
  rw [hemb]
  show _ = readout (m ((c : Thread nD τ).loc main_arg0))
    (rotRe (m ((c : Thread nD τ).loc main_arg1)) (m ((c : Thread nD τ).loc main_arg2)) (m ((c : Thread nD τ).loc main_arg3)) (m ((c : Thread nD τ).loc main_arg4)))
    (rotIm (m ((c : Thread nD τ).loc main_arg1)) (m ((c : Thread nD τ).loc main_arg2)) (m ((c : Thread nD τ).loc main_arg3)) (m ((c : Thread nD τ).loc main_arg4)))
    (gain (m ((c : Thread nD τ).loc main_arg5))) (m ((c : Thread nD τ).loc main_arg6)) (m ((c : Thread nD τ).loc main_arg7))
    (m ((c : Thread nD τ).loc main_arg8)) (m ((c : Thread nD τ).loc main_arg9)) (m ((c : Thread nD τ).loc main_arg10))
    (⟨t.val * 256 + p.val, hbl⟩ : Fin 16384) q
  refine (out_eq (iblk m c 0 t) (iblk m c 1 t) (iblk m c 2 t) (iblk m c 3 t) (iblk m c 4 t) (iblk m c 5 t) (iblk m c 6 t) (iblk m c 7 t) (iblk m c 8 t) (ix3 p o q)).trans ?_
  exact Block.element_eq (iblk m c 0 t) (iblk m c 1 t) (iblk m c 2 t) (iblk m c 6 t) (iblk m c 7 t) (iblk m c 8 t) (iblk m c 3 t) (iblk m c 4 t) (iblk m c 5 t)
    _ _ _ _ _ _ _ _ _ ⟨t.val * 256 + p.val, hbl⟩ p o q
    (fun k => rowsBlock m c t p k _ rfl) (fun s k => breBlock m c t s k) (fun s k => bimBlock m c t s k)
    (fun j s => creBlock m c t j s) (fun j s => cimBlock m c t j s) (fun j k => dBlock m c t j k)
    (fun s => gainBlock m c t s) (fun s => rotReBlock m c t s) (fun s => rotImBlock m c t s)

/-! ## The blocks cover the array -/

/-- An index of the result is in point `t`'s block iff each coordinate is in the block's range on its axis. -/
theorem mem_blk (t : Fin cfg0.N) (i : S16384x1x1024.Idx) :
    i ∈ ((cfg0.win 9).blk t).view.set ↔ ∀ a : Fin 3, win0_9.index t a * S256x1x1024.size a ≤ (i a).val ∧ (i a).val < win0_9.index t a * S256x1x1024.size a + S256x1x1024.size a := by
  show i ∈ ((View.whole main_v23).slice (win0_9.rect t)).set ↔ _
  rw [View.set_slice_whole, Rect.mem_set_unit]
  exact Iff.rfl

/-- Row `b` of the result lies in the block of point `b / 256`. -/
theorem cover (i : S16384x1x1024.Idx) : ∃ t : Fin cfg0.N, (cfg0.win 9).flush t = true ∧ i ∈ ((cfg0.win 9).blk t).view.set := by
  have hi0 : (i 0).val < 16384 := (i 0).isLt
  have hi1 : (i 1).val < 1 := (i 1).isLt
  have hi2 : (i 2).val < 1024 := (i 2).isLt
  have hlt : (i 0).val / 256 < cfg0.N := lt_of_lt_of_eq (by omega : (i 0).val / 256 < 64) N_0.symm
  refine ⟨⟨(i 0).val / 256, hlt⟩, flush0_9 _, ?_⟩
  rw [mem_blk]
  obtain ⟨-, -, -, h0, h1, h2⟩ := idx_rows ⟨(i 0).val / 256, hlt⟩
  have h0' : win0_9.index ⟨(i 0).val / 256, hlt⟩ (0 : Fin 3) = (i 0).val / 256 := h0
  intro a
  match a with
  | ⟨0, _⟩ =>
    show win0_9.index ⟨(i 0).val / 256, hlt⟩ (0 : Fin 3) * 256 ≤ (i 0).val ∧ (i 0).val < win0_9.index ⟨(i 0).val / 256, hlt⟩ (0 : Fin 3) * 256 + 256
    rw [h0']; omega
  | ⟨1, _⟩ =>
    show win0_9.index ⟨(i 0).val / 256, hlt⟩ (1 : Fin 3) * 1 ≤ (i 1).val ∧ (i 1).val < win0_9.index ⟨(i 0).val / 256, hlt⟩ (1 : Fin 3) * 1 + 1
    rw [h1]; omega
  | ⟨2, _⟩ =>
    show win0_9.index ⟨(i 0).val / 256, hlt⟩ (2 : Fin 3) * 1024 ≤ (i 2).val ∧ (i 2).val < win0_9.index ⟨(i 0).val / 256, hlt⟩ (2 : Fin 3) * 1024 + 1024
    rw [h2]; omega

/-! ## The array after the run, and the run -/

/-- The result array ends holding the recurrence step of the arguments. -/
theorem final (c : Dev nD) : (dats m 0 c).arrAt 9 cfg0.N = result m c :=
  (dats m 0 c).arrAt_eq_of_cover 9 (result m c) (fun t _ => flushed_eq m c t) cover

/-- THE KERNEL'S RUN, READ: every weakly fair execution terminates with the result array at the recurrence step of the
    arguments, the arguments unchanged. -/
theorem run : θ_run defs (onTc (τ := τ) (main (F := Ideal))) ⟨m, fun _ => 0, ρ⟩ fun r => ∀ c : Dev nD,
      r.2.mem ((c : Thread nD τ).loc main_v23) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (Value.run_blocks m ρ)

end Cert.KernelIdeal.Whole

end
-- ==== Proof.RefIsLruStep.lean ====
/-
  The reference program's result, read one operation at a time, is the recurrence step of `LruStep`.

  The reference forms `B u` for all rows at once (a contraction over the 1024 inputs), scales it by the gain broadcast
  along the rows, adds the rotated state broadcast along the rows, contracts the two parts of the new state with
  `C_re` and `C_im` over the 2048 states, doubles the difference and adds `D u`. Read at the index `(b, 0, j)`
  each contraction is the sum over its contraction index, each broadcast reads the per-state vector at the state
  coordinate, and the result is `LruStep.readout` at `(b, j)` term for term.
-/
import proofs.«115914_j9844065042808_1_alg».proof.Proof.Gen.ReferenceIdeal.Read
import proofs.«115914_j9844065042808_1_alg».proof.Proof.LruStep

noncomputable section

open scoped BigOperators

namespace Cert.ReferenceIdeal.RefValue

open Cert.ReferenceIdeal Cert.ReferenceIdeal.Read Idealize.ShloMosaic Idealize.ShloMosaic.ValueIdx Cert.LruStep

variable (x0 : (⟨S16384x1x1024, .f32⟩ : BufTy).Contents (Elt Ideal))
variable (x1 x2 x3 x4 x5 : (⟨S2048, .f32⟩ : BufTy).Contents (Elt Ideal))
variable (x6 x7 : (⟨S2048x1024, .f32⟩ : BufTy).Contents (Elt Ideal))
variable (x8 x9 : (⟨S1024x2048, .f32⟩ : BufTy).Contents (Elt Ideal))
variable (x10 : (⟨S1024x1024, .f32⟩ : BufTy).Contents (Elt Ideal))

/-- The reference's `Re (λ x)`, `Im (λ x)` and gain are the specification's, as whole vectors. -/
theorem rotRe_eq : val_main_v13 (F := Ideal) x1 x2 x3 x4 = rotRe x1 x2 x3 x4 := rfl
theorem rotIm_eq : val_main_v22 (F := Ideal) x1 x2 x3 x4 = rotIm x1 x2 x3 x4 := rfl
theorem gain_eq : val_main_v8 (F := Ideal) x5 = gain x5 := rfl

/-- `(B_re u)` at row `b`, state `s`: the reference's first contraction read at `(b, 0, s)`. -/
theorem driveRe_eq (b : Fin 16384) (s : Fin 2048) (i : S16384x1x2048.Idx)
    (h0 : (i 0).val = b.val) (h1 : (i 1).val = 0) (h2 : (i 2).val = s.val) :
    val_main_v9 (F := Ideal) x0 x6 i = drive x0 x6 b s := by
  rw [val_main_v9_apply]
  unfold drive
  refine Finset.sum_congr rfl fun k _ => ?_
  have el : lidx_main_v9 i k = ix3 b (0 : Fin 1) k := funext fun a => Fin.ext (by
    match a with
    | ⟨0, _⟩ => exact h0
    | ⟨1, _⟩ => exact h1
    | ⟨2, _⟩ => rfl)
  have er : ridx_main_v9 i k = ix2 s k := funext fun a => Fin.ext (by
    match a with
    | ⟨0, _⟩ => exact h2
    | ⟨1, _⟩ => rfl)
  rw [el, er]

/-- The same for `B_im`. -/
theorem driveIm_eq (b : Fin 16384) (s : Fin 2048) (i : S16384x1x2048.Idx)
    (h0 : (i 0).val = b.val) (h1 : (i 1).val = 0) (h2 : (i 2).val = s.val) :
    val_main_v10 (F := Ideal) x0 x7 i = drive x0 x7 b s := by
  rw [val_main_v10_apply]
  unfold drive
  refine Finset.sum_congr rfl fun k _ => ?_
  have el : lidx_main_v10 i k = ix3 b (0 : Fin 1) k := funext fun a => Fin.ext (by
    match a with
    | ⟨0, _⟩ => exact h0
    | ⟨1, _⟩ => exact h1
    | ⟨2, _⟩ => rfl)
  have er : ridx_main_v10 i k = ix2 s k := funext fun a => Fin.ext (by
    match a with
    | ⟨0, _⟩ => exact h2
    | ⟨1, _⟩ => rfl)
  rw [el, er]

/-- The real part of the new state at row `b`, state `s`: the rotated state and the gain, broadcast along the
    rows, read at the state coordinate. -/
theorem newRe_eq (b : Fin 16384) (s : Fin 2048) (i : S16384x1x2048.Idx)
    (h0 : (i 0).val = b.val) (h1 : (i 1).val = 0) (h2 : (i 2).val = s.val) :
    val_main_v19 (F := Ideal) x0 x1 x2 x3 x4 x5 x6 i = newState x0 (rotRe x1 x2 x3 x4) (gain x5) x6 b s := by
  have e1 : idx_main_v17 (idx_main_v18 i) = ix1 s := funext fun a => Fin.ext (by
    match a with
    | ⟨0, _⟩ => exact h2)
  have e2 : idx_main_v14 (idx_main_v15 i) = ix1 s := funext fun a => Fin.ext (by
    match a with
    | ⟨0, _⟩ => exact h2)
  rw [val_main_v19_apply, val_main_v18_apply, val_main_v17_apply, val_main_v16_apply, val_main_v15_apply,
    val_main_v14_apply, driveRe_eq x0 x6 b s i h0 h1 h2, e1, e2, rotRe_eq, gain_eq]
  rfl

/-- The imaginary part likewise. -/
theorem newIm_eq (b : Fin 16384) (s : Fin 2048) (i : S16384x1x2048.Idx)
    (h0 : (i 0).val = b.val) (h1 : (i 1).val = 0) (h2 : (i 2).val = s.val) :
    val_main_v28 (F := Ideal) x0 x1 x2 x3 x4 x5 x7 i = newState x0 (rotIm x1 x2 x3 x4) (gain x5) x7 b s := by
  have e1 : idx_main_v26 (idx_main_v27 i) = ix1 s := funext fun a => Fin.ext (by
    match a with
    | ⟨0, _⟩ => exact h2)
  have e2 : idx_main_v23 (idx_main_v24 i) = ix1 s := funext fun a => Fin.ext (by
    match a with
    | ⟨0, _⟩ => exact h2)
  rw [val_main_v28_apply, val_main_v27_apply, val_main_v26_apply, val_main_v25_apply, val_main_v24_apply,
    val_main_v23_apply, driveIm_eq x0 x7 b s i h0 h1 h2, e1, e2, rotIm_eq, gain_eq]
  rfl

/-- THE REFERENCE'S RESULT is the recurrence step, as one function of the eleven arguments. -/
theorem result_eq :
    val_main_v35 (F := Ideal) x0 x1 x2 x3 x4 x5 x6 x7 x8 x9 x10 = LruStep.out x0 x1 x2 x3 x4 x5 x6 x7 x8 x9 x10 := by
  funext i
  obtain ⟨b, o, j, rfl⟩ : ∃ (b : Fin 16384) (o : Fin 1) (j : Fin 1024), i = ix3 b o j := ⟨i 0, i 1, i 2, eq_ix3 i⟩
  obtain rfl : o = 0 := Subsingleton.elim _ _
  rw [val_main_v35_apply, val_main_v33_apply, val_main_v32_apply, val_main_cst_apply, val_main_v31_apply,
    val_main_v29_apply, val_main_v30_apply, val_main_v34_apply, out_apply]
  unfold readout
  have hRe : ∀ s : Fin 2048, val_main_v19 (F := Ideal) x0 x1 x2 x3 x4 x5 x6 (lidx_main_v29 (ix3 b (0 : Fin 1) j) s) * x8 (ridx_main_v29 (ix3 b (0 : Fin 1) j) s)
      = newState x0 (rotRe x1 x2 x3 x4) (gain x5) x6 b s * x8 (ix2 j s) := fun s => by
    have er : ridx_main_v29 (ix3 b (0 : Fin 1) j) s = ix2 j s := funext fun a => Fin.ext (by
      match a with
      | ⟨0, _⟩ => rfl
      | ⟨1, _⟩ => rfl)
    rw [newRe_eq x0 x1 x2 x3 x4 x5 x6 b s _ rfl rfl rfl, er]
  have hIm : ∀ s : Fin 2048, val_main_v28 (F := Ideal) x0 x1 x2 x3 x4 x5 x7 (lidx_main_v30 (ix3 b (0 : Fin 1) j) s) * x9 (ridx_main_v30 (ix3 b (0 : Fin 1) j) s)
      = newState x0 (rotIm x1 x2 x3 x4) (gain x5) x7 b s * x9 (ix2 j s) := fun s => by
    have er : ridx_main_v30 (ix3 b (0 : Fin 1) j) s = ix2 j s := funext fun a => Fin.ext (by
      match a with
      | ⟨0, _⟩ => rfl
      | ⟨1, _⟩ => rfl)
    rw [newIm_eq x0 x1 x2 x3 x4 x5 x7 b s _ rfl rfl rfl, er]
  have hD : ∀ k : Fin 1024, x0 (lidx_main_v34 (ix3 b (0 : Fin 1) j) k) * x10 (ridx_main_v34 (ix3 b (0 : Fin 1) j) k)
      = x0 (ix3 b (0 : Fin 1) k) * x10 (ix2 j k) := fun k => by
    have el : lidx_main_v34 (ix3 b (0 : Fin 1) j) k = ix3 b (0 : Fin 1) k := funext fun a => Fin.ext (by
      match a with
      | ⟨0, _⟩ => rfl
      | ⟨1, _⟩ => rfl
      | ⟨2, _⟩ => rfl)
    have er : ridx_main_v34 (ix3 b (0 : Fin 1) j) k = ix2 j k := funext fun a => Fin.ext (by
      match a with
      | ⟨0, _⟩ => rfl
      | ⟨1, _⟩ => rfl)
    rw [el, er]
  simp only [hRe, hIm, hD, Ideal.addf_def, Ideal.mulf_def, Ideal.subf_def, Ideal.ofBits_def]

end Cert.ReferenceIdeal.RefValue

end
-- ==== Proof.lean ====
/-
  A Pallas kernel for one step of a diagonal complex linear recurrence with three projections, against its jnp
  reference: equal results on the extended reals.

  Both programs compute, for each of 16384 input rows `u` (1024 numbers), from a state `x = x_re + i·x_im` of 2048
  complex numbers, a diagonal transition `λ = exp(−exp ν)·e^{i·exp θlog}`, a gain `γ = exp γlog` and the matrices `B`, `C`
  (complex) and `D` (real),

      x' = λ · x + γ · (B u),        y = 2 · Re (C x') + D u,

  with the complex products split into real ones (`LruStep`). The host computes `λ x` and `γ` by the same operations in
  both programs. The kernel then works on blocks of 256 rows with the weights resident, the reference on all rows at
  once; the kernel's products take operands in a narrower float format, which on the extended reals is the identity.
  Each product is the sum over its contraction index of the operands' products in both programs, over the same index
  in the same order, so the two results are equal term for term: no rearrangement of sums and no finiteness is used.

  The kernel's result array as one function of the arguments is `Whole.run` (the blocks the 64 grid points write
  back, joined); the reference's is `RefValue.result_eq` over its run read one operation at a time. The idealization
  rewrote no operation of the kernel: it is the kernel's own text read on the extended reals.
-/
import proofs.«115914_j9844065042808_1_alg».proof.Defs
import proofs.«115914_j9844065042808_1_alg».proof.Proof.Gen.Kernel
import proofs.«115914_j9844065042808_1_alg».proof.Proof.Gen.Kernel.Skeleton
import proofs.«115914_j9844065042808_1_alg».proof.Proof.Gen.Kernel.Launch
import proofs.«115914_j9844065042808_1_alg».proof.Proof.Gen.Kernel.Points
import proofs.«115914_j9844065042808_1_alg».proof.Proof.Gen.Kernel.Frame
import proofs.«115914_j9844065042808_1_alg».proof.Proof.Gen.KernelIdeal
import proofs.«115914_j9844065042808_1_alg».proof.Proof.Gen.KernelIdeal.Skeleton
import proofs.«115914_j9844065042808_1_alg».proof.Proof.Gen.KernelIdeal.Launch
import proofs.«115914_j9844065042808_1_alg».proof.Proof.Gen.KernelIdeal.Points
import proofs.«115914_j9844065042808_1_alg».proof.Proof.Gen.KernelIdeal.Frame
import proofs.«115914_j9844065042808_1_alg».proof.Proof.Gen.ReferenceIdeal
import proofs.«115914_j9844065042808_1_alg».proof.Proof.Gen.Pre_finite_inputs
import proofs.«115914_j9844065042808_1_alg».proof.Proof.Gen.KernelIdeal.Value
import proofs.«115914_j9844065042808_1_alg».proof.Proof.Gen.ReferenceIdeal.Run
import proofs.«115914_j9844065042808_1_alg».proof.Proof.Gen.ReferenceIdeal.Read
import proofs.«115914_j9844065042808_1_alg».proof.Proof.KernelValue
import proofs.«115914_j9844065042808_1_alg».proof.Proof.RefIsLruStep
import Idealize.ShloMosaic.Adequacy
import Idealize.ShloMosaic.Init

noncomputable section

namespace Cert.Proof

open Idealize.ShloMosaic Idealize.ShloMosaic.TcCoe Idealize.SL.Sem

/-- The kernel as printed runs, faults nowhere and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation, so there is nothing to preserve. -/
theorem preserves : Cert.preserves_Kernel_KernelIdeal := trivial

/-- From memories agreeing on the eleven arguments both programs end with the recurrence step of those arguments in
    their result arrays: the kernel by `Whole.run`, the reference by its run and `RefValue.result_eq`. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5, e6, e7, e8, e9, e10⟩ := hagree c
  rw [Cert.ReferenceIdeal.Read.val_main_v35_eq, Cert.ReferenceIdeal.RefValue.result_eq, e0, e1, e2, e3, e4, e5, e6, e7, e8, e9, e10]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
